-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4096x8x8 : Shape := ⟨4, ![128, 4096, 8, 8]⟩
abbrev S_ : Shape := ⟨0, ![]⟩

class Facts : Prop where
  bcast_S_S128x4096x8x8 : S_.BroadcastsInDim S128x4096x8x8 (![] : Fin 0 → Fin S128x4096x8x8.rank)
  reducesTo_S128x4096x8x8_S_d0_1_2_3 : S128x4096x8x8.ReducesTo [0, 1, 2, 3] S_
  h_S_ : 0 < S_.numel

variable [Facts]

def fn {F : FTy → Type} [FloatOps F] (main_arg0 : FVec F S128x4096x8x8 .f32) : IVec S_ 1 :=
  let main_v0 : FVec F S128x4096x8x8 .f32 := Host.absf main_arg0
  let main_cst : FVec F S_ .f32 := constant S_ .f32 0x7F800000#32
  let main_v1 : FVec F S128x4096x8x8 .f32 := broadcastInDim S128x4096x8x8 ![] bcast_S_S128x4096x8x8 main_cst
  let main_v2 : IVec S128x4096x8x8 1 := cmpf .olt main_v0 main_v1
  let main_c : IVec S_ 1 := constantI S_ 1 1#1
  let main_v3 : IVec S_ 1 := (fun x v => Host.reduce IntOp.andi x v reducesTo_S128x4096x8x8_S_d0_1_2_3 h_S_) main_v2 main_c
  main_v3
-- ==== Kernel.lean ====
abbrev S128x4096x8x8 : Shape := ⟨4, ![128, 4096, 8, 8]⟩
abbrev S64x64 : Shape := ⟨2, ![64, 64]⟩
abbrev S128x8x8x4096 : Shape := ⟨4, ![128, 8, 8, 4096]⟩
abbrev S128x8x8x32x128 : Shape := ⟨5, ![128, 8, 8, 32, 128]⟩
abbrev S128x8x32x8x128 : Shape := ⟨5, ![128, 8, 32, 8, 128]⟩
abbrev S4x8x32x8x128 : Shape := ⟨5, ![4, 8, 32, 8, 128]⟩
abbrev S4x32x8x8x128 : Shape := ⟨5, ![4, 32, 8, 8, 128]⟩
abbrev S128x64x128 : Shape := ⟨3, ![128, 64, 128]⟩
abbrev S1x64x64 : Shape := ⟨3, ![1, 64, 64]⟩
abbrev S128x64x64 : Shape := ⟨3, ![128, 64, 64]⟩
abbrev S128x32x128x8x8 : Shape := ⟨5, ![128, 32, 128, 8, 8]⟩
abbrev S128x4096x64 : Shape := ⟨3, ![128, 4096, 64]⟩

abbrev nBuf : Space → Nat
  | .hbm => 8
  | .vmem => 5
  | .smem => 0
  | _ => 0

abbrev bufTy : (tb : Table) → Fin (tcTables nBuf tb) → BufTy
  | .hbm, ⟨0, _⟩ => ⟨S128x4096x8x8, .f32⟩
  | .hbm, ⟨1, _⟩ => ⟨S64x64, .f32⟩
  | .hbm, ⟨2, _⟩ => ⟨S128x8x8x4096, .f32⟩
  | .hbm, ⟨3, _⟩ => ⟨S128x8x8x32x128, .f32⟩
  | .hbm, ⟨4, _⟩ => ⟨S128x8x32x8x128, .f32⟩
  | .hbm, ⟨5, _⟩ => ⟨S128x8x32x8x128, .f32⟩
  | .hbm, ⟨6, _⟩ => ⟨S128x32x128x8x8, .f32⟩
  | .hbm, ⟨7, _⟩ => ⟨S128x4096x64, .f32⟩
  | .local _ .vmem, ⟨0, _⟩ => ⟨S64x64, .f32⟩
  | .local _ .vmem, ⟨1, _⟩ => ⟨S4x8x32x8x128, .f32⟩
  | .local _ .vmem, ⟨2, _⟩ => ⟨S4x8x32x8x128, .f32⟩
  | .local _ .vmem, ⟨3, _⟩ => ⟨S4x8x32x8x128, .f32⟩
  | .local _ .vmem, ⟨4, _⟩ => ⟨S4x8x32x8x128, .f32⟩
  | _, _ => ⟨S128x4096x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x8x32x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x8x32x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S128x4096x8x8_S128x8x8x4096_0_2_3_1 : S128x4096x8x8.Transposes [0, 2, 3, 1] S128x8x8x4096
  shapeCasts_S128x8x8x4096_S128x8x8x32x128 : S128x8x8x4096.ShapeCasts S128x8x8x32x128
  transposes_S128x8x8x32x128_S128x8x32x8x128_0_1_3_2_4 : S128x8x8x32x128.Transposes [0, 1, 3, 2, 4] S128x8x32x8x128
  inb_S4x8x32x8x128_S4x8x32x8x128_0_0_0_0_0 : ∀ a, (![0, 0, 0, 0, 0] : Fin 5 → Nat) a + S4x8x32x8x128.size a ≤ S4x8x32x8x128.size a
  h_S4x8x32x8x128 : 0 < S4x8x32x8x128.numel
  shapeCasts_S4x8x32x8x128_S4x8x32x8x128 : S4x8x32x8x128.ShapeCasts S4x8x32x8x128
  transposes_S4x8x32x8x128_p0_2_1_3_4_S4x32x8x8x128 : S4x8x32x8x128.Transposes [0, 2, 1, 3, 4] S4x32x8x8x128
  shapeCasts_S4x32x8x8x128_S128x64x128 : S4x32x8x8x128.ShapeCasts S128x64x128
  inb_S64x64_S64x64_0_0 : ∀ a, (![0, 0] : Fin 2 → Nat) a + S64x64.size a ≤ S64x64.size a
  h_S64x64 : 0 < S64x64.numel
  shapeCasts_S64x64_S1x64x64 : S64x64.ShapeCasts S1x64x64
  shapeCasts_S1x64x64_S1x64x64 : S1x64x64.ShapeCasts S1x64x64
  broadcasts_S1x64x64_S128x64x64 : S1x64x64.Broadcasts S128x64x64
  shapeCasts_S128x64x128_S4x32x8x8x128 : S128x64x128.ShapeCasts S4x32x8x8x128
  transposes_S4x32x8x8x128_p0_2_1_3_4_S4x8x32x8x128 : S4x32x8x8x128.Transposes [0, 2, 1, 3, 4] S4x8x32x8x128
  transposes_S128x8x32x8x128_S128x32x128x8x8_0_2_4_1_3 : S128x8x32x8x128.Transposes [0, 2, 4, 1, 3] S128x32x128x8x8
  shapeCasts_S128x32x128x8x8_S128x4096x64 : S128x32x128x8x8.ShapeCasts S128x4096x64
  dot_S128x64x64_S128x64x128_S128x64x128_2_1_1_2_0_0_wf : DotDims.WF S128x64x64 S128x64x128 S128x64x128 [2] [1] [1] [2] [0] [0]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x64.size a ≤ S64x64.size a
  hwx0_0 : ∀ i : grid0.Coords, EltTy.bits .f32 = 32 ∨ (Rect.block (s := S64x64) S64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x8x32x8x128.size a ≤ S128x8x32x8x128.size a
  hwx0_1 : ∀ i : grid0.Coords, EltTy.bits .f32 = 32 ∨ (Rect.block (s := S128x8x32x8x128) S4x8x32x8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x8x32x8x128.size a ≤ S128x8x32x8x128.size a
  hwx0_2 : ∀ i : grid0.Coords, EltTy.bits .f32 = 32 ∨ (Rect.block (s := S128x8x32x8x128) S4x8x32x8x128.size (cc0_transform_2 i) (hinb0_2 i)).WholeWords (EltTy.packing .f32)

variable [Facts₀]

def dot_S128x64x64_S128x64x128_S128x64x128_2_1_1_2_0_0 : DotDims S128x64x64 S128x64x128 S128x64x128 where
  lhsContracting := [2]
  rhsContracting := [1]
  lhsNonContracting := [1]
  rhsNonContracting := [2]
  lhsBatch := [0]
  rhsBatch := [0]
  wf := dot_S128x64x64_S128x64x128_S128x64x128_2_1_1_2_0_0_wf

abbrev win0_0 : Pipeline.Window sig grid0 :=
  Pipeline.Window.ofSpec (Memref.whole main_cst) S64x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4x8x32x8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4x8x32x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x4096x8x8 : Shape := ⟨4, ![128, 4096, 8, 8]⟩
abbrev S64 : Shape := ⟨1, ![64]⟩
abbrev S128x4096x64 : Shape := ⟨3, ![128, 4096, 64]⟩
abbrev S_ : Shape := ⟨0, ![]⟩
abbrev S64x1 : Shape := ⟨2, ![64, 1]⟩
abbrev S1 : Shape := ⟨1, ![1]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S128x4096x8x8, .f32⟩
  | .hbm, ⟨1, _⟩ => ⟨S64, .i32⟩
  | .hbm, ⟨2, _⟩ => ⟨S128x4096x64, .f32⟩
  | .hbm, ⟨3, _⟩ => ⟨S_, .i32⟩
  | .hbm, ⟨4, _⟩ => ⟨S64, .i32⟩
  | .hbm, ⟨5, _⟩ => ⟨S64, .i1⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S64, .i32⟩
  | .hbm, ⟨10, _⟩ => ⟨S64x1, .i32⟩
  | .hbm, ⟨11, _⟩ => ⟨S1, .i32⟩
  | .hbm, ⟨12, _⟩ => ⟨S_, .i32⟩
  | .hbm, ⟨13, _⟩ => ⟨S64x1, .i32⟩
  | .hbm, ⟨14, _⟩ => ⟨S64x1, .i1⟩
  | .hbm, ⟨15, _⟩ => ⟨S1x1, .i32⟩
  | .hbm, ⟨16, _⟩ => ⟨S64x1, .i32⟩
  | .hbm, ⟨17, _⟩ => ⟨S64x1, .i1⟩
  | .hbm, ⟨18, _⟩ => ⟨S64x1, .i1⟩
  | .hbm, ⟨19, _⟩ => ⟨S_, .i1⟩
  | .hbm, ⟨20, _⟩ => ⟨S64, .i1⟩
  | .hbm, ⟨21, _⟩ => ⟨S128x4096x64, .f32⟩
  | .hbm, ⟨22, _⟩ => ⟨S128x4096x64, .i1⟩
  | .hbm, ⟨23, _⟩ => ⟨S_, .f32⟩
  | .hbm, ⟨24, _⟩ => ⟨S128x4096x64, .f32⟩
  | .hbm, ⟨25, _⟩ => ⟨S128x4096x64, .f32⟩
  | _, _ => ⟨S128x4096x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]

class Facts₀ : Prop where
  shapeCasts_S128x4096x8x8_S128x4096x64 : S128x4096x8x8.ShapeCasts S128x4096x64
  bcast_S_S64 : S_.BroadcastsInDim S64 (![] : Fin 0 → Fin S64.rank)
  bcast_S64_S64x1_0 : S64.BroadcastsInDim S64x1 (![0] : Fin 1 → Fin S64x1.rank)
  bcast_S_S64x1 : S_.BroadcastsInDim S64x1 (![] : Fin 0 → Fin S64x1.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  reducesTo_S64x1_S64_d1 : S64x1.ReducesTo [1] S64
  h_S_ : 0 < S_.numel
  bcast_S64_S128x4096x64_2 : S64.BroadcastsInDim S128x4096x64 (![2] : Fin 1 → Fin S128x4096x64.rank)
  bcast_S_S128x4096x64 : S_.BroadcastsInDim S128x4096x64 (![] : Fin 0 → Fin S128x4096x64.rank)
  gather_S128x4096x64_S64x1_S128x4096x64_01_2_n_n_2_1_12840961_wf : GatherDims.WF S128x4096x64 S64x1 S128x4096x64 [0, 1] [2] [] [2] [] 1 ![128, 4096, 1]

variable [Facts₀]

def gather_S128x4096x64_S64x1_S128x4096x64_01_2_n_n_2_1_12840961 : GatherDims S128x4096x64 S64x1 S128x4096x64 where
  offsetDims := [0, 1]
  collapsedSliceDims := [2]
  operandBatchingDims := []
  startIndicesBatchingDims := []
  startIndexMap := [2]
  indexVectorDim := 1
  sliceSizes := ![128, 4096, 1]
  wf := gather_S128x4096x64_S64x1_S128x4096x64_01_2_n_n_2_1_12840961_wf

class Facts : Prop extends Facts₀ where

variable [Facts]
-- ==== Proof.Payload.lean ====
/-
  The body's arithmetic at one grid point, read at an index.

  A block of the staged array is `v0 : [4, 8, 32, 8, 128]`, indexed (batch, tile row, lane group, tile column, lane); the
  64 × 64 table is `v4`.  The body moves the tile row next to the tile column, flattens (batch, lane group) into one
  axis of 128 and (tile row, tile column) into one axis of 64, multiplies the table into the flattened tile axis — for
  every one of the 128 × 128 (flattened batch, lane) pairs a 64 × 64 by 64-vector product —, and undoes the two
  re-arrangements.  So entry (bb, ja, sb, jd, l) of what it stores is
      ∑ k < 64,  v4 (8·ja + jd, k) · v0 (bb, k / 8, sb, k % 8, l).
-/
import proofs.«150786_g481036337610_cont_8to1c4_34_17_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Bridge

open Cert.KernelIdeal Cert.KernelIdeal.Gen Idealize.ShloMosaic Idealize.ShloMosaic.ValueIdx

/-- The batched product's dimension numbers: batch axis 0 of both operands, the left operand's axis 2 contracted
    with the right operand's axis 1. -/
abbrev bdot : DotDims S128x64x64 S128x64x128 S128x64x128 := dot_S128x64x64_S128x64x128_S128x64x128_2_1_1_2_0_0

/-! ## The operand indices of the batched product -/

theorem lhs_batch (j : S128x64x128.Idx) (k : bdot.contr.Idx) : (bdot.lhsIdx j k 0).val = (j 0).val := by
  unfold DotDims.lhsIdx
  have hb : (0 : Fin 3) ∈ bdot.lhsBatch := List.mem_singleton.mpr rfl
  rw [dif_pos hb]
  rfl

theorem lhs_row (j : S128x64x128.Idx) (k : bdot.contr.Idx) : (bdot.lhsIdx j k 1).val = (j 1).val := by
  unfold DotDims.lhsIdx
  have hb : ¬(1 : Fin 3) ∈ bdot.lhsBatch := by decide
  have hn : (1 : Fin 3) ∈ bdot.lhsNonContracting := List.mem_singleton.mpr rfl
  rw [dif_neg hb, dif_pos hn]
  rfl

theorem lhs_col (j : S128x64x128.Idx) (k : bdot.contr.Idx) : (bdot.lhsIdx j k 2).val = (k ⟨0, Nat.one_pos⟩).val :=
  bdot.lhsIdx_val_of_single rfl j k

theorem rhs_batch (j : S128x64x128.Idx) (k : bdot.contr.Idx) : (bdot.rhsIdx j k 0).val = (j 0).val := by
  unfold DotDims.rhsIdx
  have hb : (0 : Fin 3) ∈ bdot.rhsBatch := List.mem_singleton.mpr rfl
  rw [dif_pos hb]
  rfl

theorem rhs_row (j : S128x64x128.Idx) (k : bdot.contr.Idx) : (bdot.rhsIdx j k 1).val = (k ⟨0, Nat.one_pos⟩).val :=
  bdot.rhsIdx_val_of_single rfl j k

theorem rhs_col (j : S128x64x128.Idx) (k : bdot.contr.Idx) : (bdot.rhsIdx j k 2).val = (j 2).val := by
  unfold DotDims.rhsIdx
  have hb : ¬(2 : Fin 3) ∈ bdot.rhsBatch := by decide
  have hn : (2 : Fin 3) ∈ bdot.rhsNonContracting := List.mem_singleton.mpr rfl
  rw [dif_neg hb, dif_pos hn]
  rfl

/-- The contraction sum of the batched product at entry (n, p, q), re-indexed by the one contraction coordinate. -/
theorem contr_sum (lhs : FVec Ideal S128x64x64 .f32) (rhs : FVec Ideal S128x64x128 .f32)
    (n : Fin 128) (p : Fin 64) (q : Fin 128) :
    (∑ k : bdot.contr.Idx, lhs (bdot.lhsIdx (ix3 n p q) k) * rhs (bdot.rhsIdx (ix3 n p q) k))
      = ∑ l : Fin 64, lhs (ix3 n p l) * rhs (ix3 n l q) := by
  rw [← Equiv.sum_comp (contrEquiv1 bdot 64 rfl rfl).symm]
  refine Finset.sum_congr rfl fun l _ => ?_
  have hl := contrEquiv1_symm_val bdot 64 rfl rfl l
  have el : bdot.lhsIdx (ix3 n p q) ((contrEquiv1 bdot 64 rfl rfl).symm l) = ix3 n p l :=
    funext fun a => Fin.ext (by
      match a with
      | ⟨0, _⟩ => exact lhs_batch _ _
      | ⟨1, _⟩ => exact lhs_row _ _
      | ⟨2, _⟩ => exact (lhs_col _ _).trans hl)
  have er : bdot.rhsIdx (ix3 n p q) ((contrEquiv1 bdot 64 rfl rfl).symm l) = ix3 n l q :=
    funext fun a => Fin.ext (by
      match a with
      | ⟨0, _⟩ => exact rhs_batch _ _
      | ⟨1, _⟩ => exact (rhs_row _ _).trans hl
      | ⟨2, _⟩ => exact rhs_col _ _)
  rw [el, er]

/-! ## The re-arrangements around the product, each read at an index -/

/-- The table, given a leading unit axis and repeated along the 128 flattened batches, read at (n, j, k). -/
theorem table_read (v4 : Vec Ideal S64x64 .f32) (h1 : S64x64.ShapeCasts S1x64x64) (h2 : S1x64x64.ShapeCasts S1x64x64)
    (h3 : S1x64x64.Broadcasts S128x64x64) (n : Fin 128) (j k : Fin 64) :
    broadcastTo S128x64x64 (shapeCast S1x64x64 (shapeCast S1x64x64 v4 h1) h2) h3 (ix3 n j k) = v4 (ix2 j k) := by
  rw [shapeCast_self]
  refine (broadcastTo_apply _ h3 (ix3 n j k) (ix3 (0 : Fin 1) j k) (fun a => ?_)).trans ?_
  · match a with
    | ⟨0, _⟩ => rfl
    | ⟨1, _⟩ => rfl
    | ⟨2, _⟩ => rfl
  · refine shapeCast_apply v4 h1 (ix3 (0 : Fin 1) j k) (ix2 j k) ?_
    rw [Shape.rowMajor_val_two, Shape.rowMajor_val_three]
    show j.val * 64 + k.val = ((0 : Nat) * 64 + j.val) * 64 + k.val
    omega

/-- The block with the tile row moved next to the tile column and the axes flattened, read at (32·bb + sb, k, l). -/
theorem block_read (v0 : Vec Ideal S4x8x32x8x128 .f32) (h1 : S4x8x32x8x128.ShapeCasts S4x8x32x8x128)
    (h2 : S4x8x32x8x128.Transposes [0, 2, 1, 3, 4] S4x32x8x8x128) (h3 : S4x32x8x8x128.ShapeCasts S128x64x128)
    (bb : Fin 4) (sb : Fin 32) (k : Fin 64) (l : Fin 128) :
    shapeCast S128x64x128 (transpose S4x32x8x8x128 [0, 2, 1, 3, 4] (shapeCast S4x8x32x8x128 v0 h1) h2) h3
        (ix3 (⟨bb.val * 32 + sb.val, by omega⟩ : Fin 128) k l)
      = v0 (ix5 bb (⟨k.val / 8, by omega⟩ : Fin 8) sb (⟨k.val % 8, by omega⟩ : Fin 8) l) := by
  rw [shapeCast_self]
  refine (shapeCast_apply _ h3 (ix3 (⟨bb.val * 32 + sb.val, by omega⟩ : Fin 128) k l)
    (ix5 bb sb (⟨k.val / 8, by omega⟩ : Fin 8) (⟨k.val % 8, by omega⟩ : Fin 8) l) ?_).trans ?_
  · rw [Shape.rowMajor_val_three, Shape.rowMajor_val_five]
    show (((bb.val * 32 + sb.val) * 8 + k.val / 8) * 8 + k.val % 8) * 128 + l.val
      = ((bb.val * 32 + sb.val) * 64 + k.val) * 128 + l.val
    omega
  · refine transpose_apply [0, 2, 1, 3, 4] v0 h2 _ (ix5 bb (⟨k.val / 8, by omega⟩ : Fin 8) sb (⟨k.val % 8, by omega⟩ : Fin 8) l)
      (fun b => ?_)
    match b with
    | ⟨0, _⟩ => rfl
    | ⟨1, _⟩ => rfl
    | ⟨2, _⟩ => rfl
    | ⟨3, _⟩ => rfl
    | ⟨4, _⟩ => rfl

/-- The product un-flattened and the tile row moved back, read at (bb, ja, sb, jd, l). -/
theorem result_read (v8 : FVec Ideal S128x64x128 .f32) (h1 : S128x64x128.ShapeCasts S4x32x8x8x128)
    (h2 : S4x32x8x8x128.Transposes [0, 2, 1, 3, 4] S4x8x32x8x128)
    (bb : Fin 4) (ja : Fin 8) (sb : Fin 32) (jd : Fin 8) (l : Fin 128) :
    transpose S4x8x32x8x128 [0, 2, 1, 3, 4] (shapeCast S4x32x8x8x128 v8 h1) h2 (ix5 bb ja sb jd l)
      = v8 (ix3 (⟨bb.val * 32 + sb.val, by omega⟩ : Fin 128) (⟨ja.val * 8 + jd.val, by omega⟩ : Fin 64) l) := by
  refine (transpose_apply [0, 2, 1, 3, 4] _ h2 (ix5 bb ja sb jd l) (ix5 bb sb ja jd l) (fun b => ?_)).trans ?_
  · match b with
    | ⟨0, _⟩ => rfl
    | ⟨1, _⟩ => rfl
    | ⟨2, _⟩ => rfl
    | ⟨3, _⟩ => rfl
    | ⟨4, _⟩ => rfl
  · refine shapeCast_apply v8 h1 (ix5 bb sb ja jd l) _ ?_
    rw [Shape.rowMajor_val_three, Shape.rowMajor_val_five]
    show ((bb.val * 32 + sb.val) * 64 + (ja.val * 8 + jd.val)) * 128 + l.val
      = (((bb.val * 32 + sb.val) * 8 + ja.val) * 8 + jd.val) * 128 + l.val
    omega

/-! ## The stored value at an index -/

/-- What the body stores, at (bb, ja, sb, jd, l): the table's row 8·ja + jd against the 64 entries of the tile at
    (bb, ·, sb, ·, l). -/
theorem pay_apply (v0 : Vec Ideal S4x8x32x8x128 .f32) (v4 : Vec Ideal S64x64 .f32)
    (bb : Fin 4) (ja : Fin 8) (sb : Fin 32) (jd : Fin 8) (l : Fin 128) :
    k0_pay1 (F := Ideal) v0 v4 (ix5 bb ja sb jd l)
      = ∑ k : Fin 64, v4 (ix2 (⟨ja.val * 8 + jd.val, by omega⟩ : Fin 64) k)
          * v0 (ix5 bb (⟨k.val / 8, by omega⟩ : Fin 8) sb (⟨k.val % 8, by omega⟩ : Fin 8) l) := by
  unfold k0_pay1
  refine (result_read _ _ _ bb ja sb jd l).trans ?_
  refine (Ideal.matmul_constant_zero_apply bdot (some .fp32) _ _ _).trans ?_
  refine (contr_sum _ _ _ _ _).trans ?_
  refine Finset.sum_congr rfl fun k _ => ?_
  rw [table_read, block_read]

end Cert.KernelIdeal.Bridge

end
-- ==== Proof.Spec.lean ====
/-
  The zig-zag reordering as one function of the argument array.

  An input `x : [128, 4096, 8, 8]` holds, for each of 128 × 4096 blocks, an 8 × 8 tile.  Flattening the tile row by
  row gives 64 entries; the result `[128, 4096, 64]` lists them in the zig-zag order: position `j` of the result is
  entry `order j` of the flattened tile, that is the tile's entry in row `order j / 8`, column `order j % 8`.
  Both programs are compared with this one function.
-/
import Idealize.ShloMosaic.PureOps.Ideal
import Idealize.ShloMosaic.Lib.ValueIdx

noncomputable section

namespace Cert.ZigZag

open Idealize.ShloMosaic Idealize.ShloMosaic.ValueIdx

/-- The zig-zag order of an 8 × 8 tile: position `j` of the reordered tile takes the row-major entry `order j`. -/
def order : Fin 64 → Fin 64 :=
  ![0, 1, 5, 6, 14, 15, 27, 28, 2, 4, 7, 13, 16, 26, 29, 42, 3, 8, 12, 17, 25, 30, 41, 43, 9, 11, 18, 24, 31, 40, 44, 53,
    10, 19, 23, 32, 39, 45, 52, 54, 20, 22, 33, 38, 46, 51, 55, 60, 21, 34, 37, 47, 50, 56, 59, 61, 35, 36, 48, 49, 57, 58,
    62, 63]

/-- The tile row of the entry that position `j` takes. -/
def orow (j : Fin 64) : Fin 8 := ⟨(order j).val / 8, by omega⟩
/-- The tile column of the entry that position `j` takes. -/
def ocol (j : Fin 64) : Fin 8 := ⟨(order j).val % 8, by omega⟩

/-- The reordered array: entry `(b, c, j)` is the tile `(b, c)`'s entry at row `orow j`, column `ocol j`. -/
def reordered (x : FVec Ideal ⟨4, ![128, 4096, 8, 8]⟩ .f32) : FVec Ideal ⟨3, ![128, 4096, 64]⟩ .f32 :=
  fun i => x (ix4 (i 0) (i 1) (orow (i 2)) (ocol (i 2)))

theorem reordered_apply (x : FVec Ideal ⟨4, ![128, 4096, 8, 8]⟩ .f32) (b : Fin 128) (c : Fin 4096) (j : Fin 64) :
    reordered x (ix3 b c j) = x (ix4 b c (orow j) (ocol j)) := rfl

end Cert.ZigZag

end
-- ==== Proof.Table.lean ====
/-
  The 64 × 64 table the body multiplies with is the matrix of the zig-zag order: row `j` holds a one in column
  `order j` and zeros elsewhere.  Multiplying a 64-vector by it therefore selects: the sum over `k` of
  (row `j`, column `k`) · `f k` is `f (order j)`, because every other term is a zero times an extended real, which is
  zero whatever the extended real is.
-/
import proofs.«150786_g481036337610_cont_8to1c4_34_17_alg».proof.KernelIdeal
import proofs.«150786_g481036337610_cont_8to1c4_34_17_alg».proof.Proof.Spec
import Idealize.ShloMosaic.PureOps.Ideal.Laws

noncomputable section

open scoped BigOperators

namespace Cert.KernelIdeal.Bridge

open Cert.KernelIdeal Idealize.ShloMosaic Idealize.ShloMosaic.ValueIdx Cert.ZigZag

/-- The word 0x3F800000 is the number one. -/
theorem ofBits_one : Ideal.ofBits .f32 0x3F800000#32 = 1 := by
  simp [Ideal.ofBits, Ideal.ieee]
  rw [← EReal.coe_mul]
  norm_num

set_option maxRecDepth 100000 in
/-- Entry (j, k) of the table, as a word: one exactly when `k` is `order j` (all 4096 entries, by evaluation). -/
theorem table_bits : ∀ j k : Fin 64, lit0 ⟨j.val * 64 + k.val, by omega⟩
    = if k = order j then 0x3F800000#32 else 0x00000000#32 := by decide +kernel

/-- Entry (j, k) of the table, as an extended real. -/
theorem table_entry (j k : Fin 64) :
    (FloatOps.ofBits (F := Ideal) .f32 (lit0 (S64x64.rowMajor (ix2 j k))) : EReal) = if k = order j then 1 else 0 := by
  have e : S64x64.rowMajor (ix2 j k) = (⟨j.val * 64 + k.val, by omega⟩ : Fin 4096) :=
    Fin.ext (by rw [Shape.rowMajor_val_two]; rfl)
  rw [e, table_bits j k, Ideal.ofBits_def]
  split
  · exact ofBits_one
  · exact Ideal.ofBits_zero_f32

/-- Multiplying by row `j` of the table selects entry `order j`. -/
theorem select_sum (j : Fin 64) (f : Fin 64 → EReal) :
    (∑ k : Fin 64, (if k = order j then (1 : EReal) else 0) * f k) = f (order j) := by
  rw [Finset.sum_eq_single (order j)]
  · rw [if_pos rfl, one_mul]
  · intro k _ hk
    rw [if_neg hk, zero_mul]
  · intro h
    exact absurd (Finset.mem_univ _) h

end Cert.KernelIdeal.Bridge

end
-- ==== Proof.Host.lean ====
/-
  The re-arrangements around the tiled region, and the array the region leaves, as functions of the argument array.

  Before the region the argument `x : [128, 4096, 8, 8]`, indexed (batch, block, tile row, tile column), is re-laid as
  `[128, 8, 32, 8, 128]`, indexed (batch, tile row, lane group, tile column, lane), a block being 128 · (lane group) +
  lane.  The region permutes the 64 (tile row, tile column) planes by the zig-zag order.  After the region the
  array is re-laid as `[128, 4096, 64]`, indexed (batch, block, position), a position being 8 · (tile row) + (tile
  column).  The three together are the zig-zag reordering of every tile.
-/
import proofs.«150786_g481036337610_cont_8to1c4_34_17_alg».proof.KernelIdeal
import proofs.«150786_g481036337610_cont_8to1c4_34_17_alg».proof.Proof.Spec
import Idealize.ShloMosaic.Lib.Pipeline.Value
import Idealize.ShloMosaic.Lib.ValueIdx

noncomputable section

namespace Cert.KernelIdeal.Bridge

open Cert.KernelIdeal Idealize.ShloMosaic Idealize.ShloMosaic.ValueIdx Cert.ZigZag

/-- The array the region is given: the argument with the tile axes moved in front of the block axis, the block axis
    split into lane group and lane, and the lane group moved in front of the tile column. -/
def staged (x : FVec Ideal S128x4096x8x8 .f32) : FVec Ideal S128x8x32x8x128 .f32 :=
  transpose S128x8x32x8x128 [0, 1, 3, 2, 4]
    (shapeCast S128x8x8x32x128 (transpose S128x8x8x4096 [0, 2, 3, 1] x (by decide)) (by decide)) (by decide)

/-- Entry (b, a, sb, d, l) of the staged array is the argument's entry (b, 128·sb + l, a, d). -/
theorem staged_apply (x : FVec Ideal S128x4096x8x8 .f32) (b : Fin 128) (a : Fin 8) (sb : Fin 32) (d : Fin 8) (l : Fin 128) :
    staged x (ix5 b a sb d l) = x (ix4 b (⟨sb.val * 128 + l.val, by omega⟩ : Fin 4096) a d) := by
  unfold staged
  refine (transpose_apply [0, 1, 3, 2, 4] _ _ (ix5 b a sb d l) (ix5 b a d sb l) (fun q => ?_)).trans ?_
  · match q with
    | ⟨0, _⟩ => rfl
    | ⟨1, _⟩ => rfl
    | ⟨2, _⟩ => rfl
    | ⟨3, _⟩ => rfl
    | ⟨4, _⟩ => rfl
  refine (shapeCast_apply _ _ (ix5 b a d sb l) (ix4 b a d (⟨sb.val * 128 + l.val, by omega⟩ : Fin 4096)) ?_).trans ?_
  · rw [Shape.rowMajor_val_four, Shape.rowMajor_val_five]
    show ((b.val * 8 + a.val) * 8 + d.val) * 4096 + (sb.val * 128 + l.val)
      = (((b.val * 8 + a.val) * 8 + d.val) * 32 + sb.val) * 128 + l.val
    omega
  refine transpose_apply [0, 2, 3, 1] x _ _ (ix4 b (⟨sb.val * 128 + l.val, by omega⟩ : Fin 4096) a d) (fun q => ?_)
  match q with
  | ⟨0, _⟩ => rfl
  | ⟨1, _⟩ => rfl
  | ⟨2, _⟩ => rfl
  | ⟨3, _⟩ => rfl

/-- The array the program returns, from the array the region leaves: lane group and lane moved in front of the tile
    axes and merged into the block axis, the tile axes merged into the position axis. -/
def unstaged (y : FVec Ideal S128x8x32x8x128 .f32) : FVec Ideal S128x4096x64 .f32 :=
  shapeCast S128x4096x64 (transpose S128x32x128x8x8 [0, 2, 4, 1, 3] y (by decide)) (by decide)

/-- Entry (b, c, j) of the returned array is the region's entry (b, j / 8, c / 128, j % 8, c % 128). -/
theorem unstaged_apply (y : FVec Ideal S128x8x32x8x128 .f32) (b : Fin 128) (c : Fin 4096) (j : Fin 64) :
    unstaged y (ix3 b c j)
      = y (ix5 b (⟨j.val / 8, by omega⟩ : Fin 8) (⟨c.val / 128, by omega⟩ : Fin 32) (⟨j.val % 8, by omega⟩ : Fin 8)
          (⟨c.val % 128, by omega⟩ : Fin 128)) := by
  unfold unstaged
  refine (shapeCast_apply _ _ (ix3 b c j)
    (ix5 b (⟨c.val / 128, by omega⟩ : Fin 32) (⟨c.val % 128, by omega⟩ : Fin 128) (⟨j.val / 8, by omega⟩ : Fin 8)
      (⟨j.val % 8, by omega⟩ : Fin 8)) ?_).trans ?_
  · rw [Shape.rowMajor_val_three, Shape.rowMajor_val_five]
    show (((b.val * 32 + c.val / 128) * 128 + c.val % 128) * 8 + j.val / 8) * 8 + j.val % 8
      = (b.val * 4096 + c.val) * 64 + j.val
    omega
  refine transpose_apply [0, 2, 4, 1, 3] y _ _ _ (fun q => ?_)
  match q with
  | ⟨0, _⟩ => rfl
  | ⟨1, _⟩ => rfl
  | ⟨2, _⟩ => rfl
  | ⟨3, _⟩ => rfl
  | ⟨4, _⟩ => rfl

/-- What the region leaves, by coordinates: at (b, ja, sb, jd, l) the argument's tile (b, 128·sb + l) at the entry the
    zig-zag order gives position 8·ja + jd. -/
def permutedAt (x : FVec Ideal S128x4096x8x8 .f32) (b : Fin 128) (ja : Fin 8) (sb : Fin 32) (jd : Fin 8) (l : Fin 128) : EReal :=
  x (ix4 b (⟨sb.val * 128 + l.val, by omega⟩ : Fin 4096) (orow (⟨ja.val * 8 + jd.val, by omega⟩ : Fin 64))
    (ocol (⟨ja.val * 8 + jd.val, by omega⟩ : Fin 64)))

/-- What the region leaves, as an array. -/
def permuted (x : FVec Ideal S128x4096x8x8 .f32) : FVec Ideal S128x8x32x8x128 .f32 :=
  fun i => permutedAt x (i 0) (i 1) (i 2) (i 3) (i 4)

theorem permuted_apply (x : FVec Ideal S128x4096x8x8 .f32) (b : Fin 128) (ja : Fin 8) (sb : Fin 32) (jd : Fin 8) (l : Fin 128) :
    permuted x (ix5 b ja sb jd l) = permutedAt x b ja sb jd l := rfl

/-- Re-laying what the region leaves gives the zig-zag reordering of the argument. -/
theorem unstaged_permuted (x : FVec Ideal S128x4096x8x8 .f32) : unstaged (permuted x) = reordered x := by
  funext i
  obtain ⟨b, c, j, rfl⟩ : ∃ (b : Fin 128) (c : Fin 4096) (j : Fin 64), i = ix3 b c j := ⟨i 0, i 1, i 2, eq_ix3 i⟩
  rw [unstaged_apply, permuted_apply, reordered_apply]
  unfold permutedAt
  have ec : (⟨c.val / 128 * 128 + c.val % 128, by omega⟩ : Fin 4096) = c := Fin.ext (by show c.val / 128 * 128 + c.val % 128 = c.val; omega)
  have ej : (⟨j.val / 8 * 8 + j.val % 8, by omega⟩ : Fin 64) = j := Fin.ext (by show j.val / 8 * 8 + j.val % 8 = j.val; omega)
  rw [ec, ej]

end Cert.KernelIdeal.Bridge

end
-- ==== Proof.Blocks.lean ====
/-
  The array the tiled region leaves.

  The region runs at 32 grid points; point `t` stages batches 4t … 4t + 3 of the re-laid argument, multiplies the table
  into each of their tiles, and writes the four batches back.  The table's row 8·ja + jd selects entry `order (8·ja + jd)`
  of a tile, so what point `t` writes back is batches 4t … 4t + 3 of the array `permuted x`; the 32 points' blocks cover
  all 128 batches, so the region leaves exactly `permuted x`.
-/
import proofs.«150786_g481036337610_cont_8to1c4_34_17_alg».proof.Proof.Gen.KernelIdeal.Frame
import proofs.«150786_g481036337610_cont_8to1c4_34_17_alg».proof.Proof.Payload
import proofs.«150786_g481036337610_cont_8to1c4_34_17_alg».proof.Proof.Table
import proofs.«150786_g481036337610_cont_8to1c4_34_17_alg».proof.Proof.Host
import Idealize.ShloMosaic.Lib.Pipeline.Value
import Idealize.ShloMosaic.Lib.StableHlo.Run

noncomputable section

open scoped BigOperators

namespace Cert.KernelIdeal.Bridge

open Cert.KernelIdeal Cert.KernelIdeal.Gen Idealize.ShloMosaic Idealize.ShloMosaic.TcCoe Idealize.SL.Sem
open Idealize.ShloMosaic.ValueIdx Cert.ZigZag
open Idealize.ShloMosaic.Pipeline (Dat)

variable (m : (ℓ : Loc nD τ sig) → Buf (Elt Ideal) ℓ) (ρ : Dev nD → PrngReg)

/-! ## The arrays the region finds -/

/-- The table's array holds the literal table. -/
theorem V_table (c : Dev nD) :
    (V m c main_cst : S64x64.Idx → EReal) = fun i => FloatOps.ofBits (F := Ideal) .f32 (lit0 (S64x64.rowMajor i)) := by
  show StableHlo.after hostOps0 (fun b => m (c, b)) (Proc.devRef .tc main_cst) = _
  after_results
  rfl

/-- The staged array is the re-laid argument. -/
theorem V_staged (c : Dev nD) :
    (V m c main_v2 : S128x8x32x8x128.Idx → EReal) = staged (m ((c : Thread nD τ).loc main_arg0)) := by
  show StableHlo.after hostOps0 (fun b => m (c, b)) (Proc.devRef .tc main_v2) = _
  after_results
  rfl

/-! ## The windows' blocks -/

theorem hz2 : (![0, 0] : Fin 2 → Nat) = fun _ => 0 := funext fun a => by fin_cases a <;> rfl
theorem hz5 : (![0, 0, 0, 0, 0] : Fin 5 → Nat) = fun _ => 0 := funext fun a => by fin_cases a <;> rfl

/-- The table's window is the whole table at every point. -/
theorem idx_table : ∀ t : Fin cfg0.N, win0_0.index t (0 : Fin 2) = 0 ∧ win0_0.index t (1 : Fin 2) = 0 :=
  (by decide +kernel : ∀ t : Fin grid0.N, _)

/-- The input window's block at point `t` is block `t` along the batch axis, whole along the others. -/
theorem idx_in : ∀ t : Fin cfg0.N, win0_1.index t (0 : Fin 5) = t.val ∧ win0_1.index t (1 : Fin 5) = 0
    ∧ win0_1.index t (2 : Fin 5) = 0 ∧ win0_1.index t (3 : Fin 5) = 0 ∧ win0_1.index t (4 : Fin 5) = 0 :=
  (by decide +kernel : ∀ t : Fin grid0.N, _)

/-- So is the output window's. -/
theorem idx_out : ∀ t : Fin cfg0.N, win0_2.index t (0 : Fin 5) = t.val ∧ win0_2.index t (1 : Fin 5) = 0
    ∧ win0_2.index t (2 : Fin 5) = 0 ∧ win0_2.index t (3 : Fin 5) = 0 ∧ win0_2.index t (4 : Fin 5) = 0 :=
  (by decide +kernel : ∀ t : Fin grid0.N, _)

theorem batch_lt (t : Fin cfg0.N) (bb : Fin 4) : 4 * t.val + bb.val < 128 := by
  have := t.isLt
  have hN : cfg0.N = 32 := N_0
  omega

/-- The table's block at any point, read at (j, k): one exactly when `k` is `order j`. -/
theorem table_block (c : Dev nD) (t : Fin cfg0.N) (j k : Fin 64) :
    iblk m c 0 t (ix2 j k) = if k = order j then (1 : EReal) else 0 := by
  show V m c main_cst (((cfg0.win 0).blk t).view.emb (ix2 j k)) = _
  obtain ⟨e0, e1⟩ := idx_table t
  have he : ((cfg0.win 0).blk t).view.emb (ix2 j k) = ix2 j k := funext fun x => Fin.ext (by
    match x with
    | ⟨0, _⟩ => show win0_0.index t (0 : Fin 2) * 64 + 1 * j.val = j.val; omega
    | ⟨1, _⟩ => show win0_0.index t (1 : Fin 2) * 64 + 1 * k.val = k.val; omega)
  rw [he, V_table]
  exact table_entry j k

/-- The input's block at point `t`, read at (bb, a, sb, d, l): the argument's tile (4t + bb, 128·sb + l) at (a, d). -/
theorem staged_block (c : Dev nD) (t : Fin cfg0.N) (bb : Fin 4) (a : Fin 8) (sb : Fin 32) (d : Fin 8) (l : Fin 128) :
    iblk m c 1 t (ix5 bb a sb d l)
      = m ((c : Thread nD τ).loc main_arg0)
          (ix4 (⟨4 * t.val + bb.val, batch_lt t bb⟩ : Fin 128) (⟨sb.val * 128 + l.val, by omega⟩ : Fin 4096) a d) := by
  show V m c main_v2 (((cfg0.win 1).blk t).view.emb (ix5 bb a sb d l)) = _
  obtain ⟨e0, e1, e2, e3, e4⟩ := idx_in t
  have he : ((cfg0.win 1).blk t).view.emb (ix5 bb a sb d l)
      = ix5 (⟨4 * t.val + bb.val, batch_lt t bb⟩ : Fin 128) a sb d l := funext fun x => Fin.ext (by
    match x with
    | ⟨0, _⟩ => show win0_1.index t (0 : Fin 5) * 4 + 1 * bb.val = 4 * t.val + bb.val; omega
    | ⟨1, _⟩ => show win0_1.index t (1 : Fin 5) * 8 + 1 * a.val = a.val; omega
    | ⟨2, _⟩ => show win0_1.index t (2 : Fin 5) * 32 + 1 * sb.val = sb.val; omega
    | ⟨3, _⟩ => show win0_1.index t (3 : Fin 5) * 8 + 1 * d.val = d.val; omega
    | ⟨4, _⟩ => show win0_1.index t (4 : Fin 5) * 128 + 1 * l.val = l.val; omega)
  rw [he, V_staged]
  exact staged_apply _ _ a sb d l

/-! ## What a point writes back -/

/-- Point `t` writes back block `t` of `permuted x`. -/
theorem flushed_eq (c : Dev nD) (t : Fin cfg0.N) :
    (dats m 0 c).flushed 2 t
      = ((cfg0.win 2).blk t).view.read (Elt Ideal) (permuted (m ((c : Thread nD τ).loc main_arg0))) := by
  show (cfg0.win 2).cut (grid0.coords t) ((dats m 0 c).after 2 t) = _
  rw [after0_2]
  unfold out0_2
  rw [View.canon_unit_zero hz5]
  simp only [View.ld_unit_zero (S := S4x8x32x8x128) hz5, View.ld_unit_zero (S := S64x64) hz2]
  refine funext fun (y : S4x8x32x8x128.Idx) => ?_
  obtain ⟨bb, ja, sb, jd, l, rfl⟩ : ∃ (bb : Fin 4) (ja : Fin 8) (sb : Fin 32) (jd : Fin 8) (l : Fin 128),
      y = ix5 bb ja sb jd l := ⟨y 0, y 1, y 2, y 3, y 4, eq_ix5 y⟩
  show k0_pay1 (F := Ideal) (iblk m c 1 t) (iblk m c 0 t) (ix5 bb ja sb jd l)
    = permuted (m ((c : Thread nD τ).loc main_arg0)) (((cfg0.win 2).blk t).view.emb (ix5 bb ja sb jd l))
  obtain ⟨e0, e1, e2, e3, e4⟩ := idx_out t
  have he : ((cfg0.win 2).blk t).view.emb (ix5 bb ja sb jd l)
      = ix5 (⟨4 * t.val + bb.val, batch_lt t bb⟩ : Fin 128) ja sb jd l := funext fun x => Fin.ext (by
    match x with
    | ⟨0, _⟩ => show win0_2.index t (0 : Fin 5) * 4 + 1 * bb.val = 4 * t.val + bb.val; omega
    | ⟨1, _⟩ => show win0_2.index t (1 : Fin 5) * 8 + 1 * ja.val = ja.val; omega
    | ⟨2, _⟩ => show win0_2.index t (2 : Fin 5) * 32 + 1 * sb.val = sb.val; omega
    | ⟨3, _⟩ => show win0_2.index t (3 : Fin 5) * 8 + 1 * jd.val = jd.val; omega
    | ⟨4, _⟩ => show win0_2.index t (4 : Fin 5) * 128 + 1 * l.val = l.val; omega)
  rw [he, permuted_apply]
  refine (pay_apply (iblk m c 1 t) (iblk m c 0 t) bb ja sb jd l).trans ?_
  refine (Finset.sum_congr rfl fun k _ => by rw [table_block m c t _ k, staged_block m c t bb _ sb _ l]).trans ?_
  exact select_sum (⟨ja.val * 8 + jd.val, by omega⟩ : Fin 64) (fun k =>
    m ((c : Thread nD τ).loc main_arg0)
      (ix4 (⟨4 * t.val + bb.val, batch_lt t bb⟩ : Fin 128) (⟨sb.val * 128 + l.val, by omega⟩ : Fin 4096)
        (⟨k.val / 8, by omega⟩ : Fin 8) (⟨k.val % 8, by omega⟩ : Fin 8)))

/-! ## The blocks cover the array -/

/-- An index of the array is in point `t`'s block iff each coordinate is in the block's range on its axis. -/
theorem mem_blk (t : Fin cfg0.N) (i : S128x8x32x8x128.Idx) :
    i ∈ ((cfg0.win 2).blk t).view.set ↔ ∀ a : Fin 5, win0_2.index t a * S4x8x32x8x128.size a ≤ (i a).val
      ∧ (i a).val < win0_2.index t a * S4x8x32x8x128.size a + S4x8x32x8x128.size a := by
  show i ∈ ((View.whole main_v3).slice (win0_2.rect t)).set ↔ _
  rw [View.set_slice_whole, Rect.mem_set_unit]
  exact Iff.rfl

/-- Batch `b` is in the block of point `b / 4`. -/
theorem cover (i : S128x8x32x8x128.Idx) :
    ∃ t : Fin cfg0.N, (cfg0.win 2).flush t = true ∧ i ∈ ((cfg0.win 2).blk t).view.set := by
  have hN : cfg0.N = 32 := N_0
  have h0 : (i 0).val < 128 := (i 0).isLt
  have h1 : (i 1).val < 8 := (i 1).isLt
  have h2 : (i 2).val < 32 := (i 2).isLt
  have h3 : (i 3).val < 8 := (i 3).isLt
  have h4 : (i 4).val < 128 := (i 4).isLt
  refine ⟨⟨(i 0).val / 4, by omega⟩, flush0_2 _, ?_⟩
  obtain ⟨e0, e1, e2, e3, e4⟩ := idx_out ⟨(i 0).val / 4, by omega⟩
  rw [mem_blk]
  intro a
  match a with
  | ⟨0, _⟩ =>
    show win0_2.index ⟨(i 0).val / 4, _⟩ (0 : Fin 5) * 4 ≤ (i 0).val
      ∧ (i 0).val < win0_2.index ⟨(i 0).val / 4, _⟩ (0 : Fin 5) * 4 + 4
    rw [e0]; show (i 0).val / 4 * 4 ≤ (i 0).val ∧ (i 0).val < (i 0).val / 4 * 4 + 4; omega
  | ⟨1, _⟩ =>
    show win0_2.index ⟨(i 0).val / 4, _⟩ (1 : Fin 5) * 8 ≤ (i 1).val
      ∧ (i 1).val < win0_2.index ⟨(i 0).val / 4, _⟩ (1 : Fin 5) * 8 + 8
    rw [e1]; omega
  | ⟨2, _⟩ =>
    show win0_2.index ⟨(i 0).val / 4, _⟩ (2 : Fin 5) * 32 ≤ (i 2).val
      ∧ (i 2).val < win0_2.index ⟨(i 0).val / 4, _⟩ (2 : Fin 5) * 32 + 32
    rw [e2]; omega
  | ⟨3, _⟩ =>
    show win0_2.index ⟨(i 0).val / 4, _⟩ (3 : Fin 5) * 8 ≤ (i 3).val
      ∧ (i 3).val < win0_2.index ⟨(i 0).val / 4, _⟩ (3 : Fin 5) * 8 + 8
    rw [e3]; omega
  | ⟨4, _⟩ =>
    show win0_2.index ⟨(i 0).val / 4, _⟩ (4 : Fin 5) * 128 ≤ (i 4).val
      ∧ (i 4).val < win0_2.index ⟨(i 0).val / 4, _⟩ (4 : Fin 5) * 128 + 128
    rw [e4]; omega

/-- The region leaves `permuted x`. -/
theorem region_result (c : Dev nD) :
    (dats m 0 c).arrAt 2 cfg0.N = permuted (m ((c : Thread nD τ).loc main_arg0)) :=
  (dats m 0 c).arrAt_eq_of_cover 2 (permuted (m ((c : Thread nD τ).loc main_arg0))) (fun t _ => flushed_eq m c t) cover

end Cert.KernelIdeal.Bridge

end
-- ==== Proof.KernelRun.lean ====
/-
  The whole program's result.

  After the region the program re-lays the array the region left; that array is `permuted x`, and its re-laying is the
  zig-zag reordering of the argument `x`.
-/
import proofs.«150786_g481036337610_cont_8to1c4_34_17_alg».proof.Proof.Blocks

noncomputable section

namespace Cert.KernelIdeal.Bridge

open Cert.KernelIdeal Cert.KernelIdeal.Gen Idealize.ShloMosaic Idealize.ShloMosaic.TcCoe Idealize.SL.Sem
open Idealize.ShloMosaic.ValueIdx Cert.ZigZag
open Idealize.ShloMosaic.Pipeline (Dat)

variable (m : (ℓ : Loc nD τ sig) → Buf (Elt Ideal) ℓ) (ρ : Dev nD → PrngReg)

/-- The two operations after the region, from any contents: the returned array is the re-laying of the region's array. -/
theorem tail_of (W : Valuation τ sig (Elt Ideal)) :
    (StableHlo.after hostOps1 W (Proc.devRef .tc main_v5) : S128x4096x64.Idx → EReal)
      = unstaged (W (Proc.devRef .tc main_v3)) := by
  after_results
  rfl

/-- The returned array is the zig-zag reordering of the argument. -/
theorem tail_result (c : Dev nD) :
    Pipeline.afterTail₀ cfgs (dats m) 0 (V0 m) [hostOps1] c main_v5 = reordered (m ((c : Thread nD τ).loc main_arg0)) := by
  unfold Pipeline.afterTail₀
  show StableHlo.after hostOps1 _ (Proc.devRef .tc main_v5) = _
  refine (tail_of _).trans ?_
  refine (congrArg unstaged ((Pipeline.withArrays_arr spec0 launch0.win.arr_inj c _ _ 2).trans (region_result m c))).trans ?_
  exact unstaged_permuted _

/-- Every execution of the program ends with the returned array at the zig-zag reordering of the argument, the
    argument unchanged. -/
theorem run : θ_run defs (onTc (τ := τ) (main (F := Ideal))) ⟨m, fun _ => 0, ρ⟩ (fun r => ∀ c : Dev nD,
      r.2.mem ((c : Thread nD τ).loc main_v5) = reordered (m ((c : Thread nD τ).loc main_arg0))
      ∧ r.2.mem ((c : Thread nD τ).loc main_arg0) = m ((c : Thread nD τ).loc main_arg0)) :=
  (θ_run defs _ _).mono (fun r h c =>
    ⟨((h c).2 main_v5 (Pipeline.mem_restRefs_of main_v5 (by decide) (by decide))).trans (tail_result m c),
     ((h c).2 main_arg0 (Pipeline.mem_restRefs_of main_arg0 (by decide) (by decide))).trans (W_main_arg0 m (dats m) c)⟩)
    (run_main m ρ)

end Cert.KernelIdeal.Bridge

end
-- ==== Proof.RefOps.lean ====
/-
  The reference program as a straight line of operations.

  The reference's @main is a constant table, a reshape and one call; the callee's body is a further twenty-two
  operations, one of them a nested call whose body is a single select.  With every call replaced by the callee's
  operations over the buffers that call names, @main is one line of twenty-five operations, and it touches no
  scoped buffer and no semaphore.
-/
import proofs.«150786_g481036337610_cont_8to1c4_34_17_alg».proof.Proof.Gen.ReferenceIdeal
import Idealize.ShloMosaic.Lib.StableHlo.Run

noncomputable section

namespace Cert.ReferenceIdeal.RefValue

open Cert.ReferenceIdeal Idealize.ShloMosaic Idealize.ShloMosaic.TcCoe Idealize.SL.Sem
  Idealize.ShloMosaic.StableHlo
open Cert.ReferenceIdeal.Facts₀

variable {F : FTy → Type} [FloatOps F]

/-- @main's operations in order, each call's body written out over that call's buffers: the table, the reshape, the
    twenty-two operations of the take (the wrapped index, its bounds mask, the gather, the masked result), the
    select of the nested call among them. -/
abbrev ops : List (HloOp τ sig (Elt F)) :=
  [ nullary main_c (fun i => lit0 (S64.rowMajor i)),
    reshape main_arg0 main_v0 rfl shapeCasts_S128x4096x8x8_S128x4096x64,
    TRef.nullary main_call0.c (constantI S_ 32 0#32),
    TRef.unary main_call0.c main_call0.v0 (broadcastInDim S64 ![] bcast_S_S64),
    TRef.binary (.of main_c) main_call0.v0 main_call0.v1 (cmpi .slt),
    TRef.nullary main_call0.c_0 (constantI S_ 32 64#32),
    TRef.unary main_call0.c_0 main_call0.v2 (broadcastInDim S64 ![] bcast_S_S64),
    TRef.binary (.of main_c) main_call0.v2 main_call0.v3 addi,
    TRef.ternary main_call0.v1 main_call0.v3 (.of main_c) main_call0.call0.v0 select,
    TRef.unary main_call0.call0.v0 main_call0.v5 (broadcastInDim S64x1 ![0] bcast_S64_S64x1_0),
    TRef.nullary main_call0.c_1 (constantI S1 32 63#32),
    TRef.nullary main_call0.c_2 (constantI S_ 32 0#32),
    TRef.unary main_call0.c_2 main_call0.v6 (broadcastInDim S64x1 ![] bcast_S_S64x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S64x1 ![0, 1] bcast_S1x1_S64x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S64x1_S64_d1 h_S_),
    TRef.binary (.of main_v0) main_call0.v5 main_call0.v13 (fun x i => Host.gather gather_S128x4096x64_S64x1_S128x4096x64_01_2_n_n_2_1_12840961 x i),
    TRef.unary main_call0.v12 main_call0.v14 (broadcastInDim S128x4096x64 ![2] bcast_S64_S128x4096x64_2),
    TRef.nullary main_call0.cst (constant S_ .f32 0x7FC00000#32),
    TRef.unary main_call0.cst main_call0.v15 (broadcastInDim S128x4096x64 ![] bcast_S_S128x4096x64),
    TRef.ternary main_call0.v14 main_call0.v13 main_call0.v15 main_call0.v16 select ]

-- twenty-five binds re-associated
set_option maxRecDepth 1024 in
/-- @main is that straight line: the two callees' definitions unfolded at their calls, both sides are one chain of
    operation steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., reshape_bufs_sub .., nullary_bufs_sub .., unary_bufs_sub .., binary_bufs_sub ..,
    nullary_bufs_sub .., unary_bufs_sub .., binary_bufs_sub .., ternary_bufs_sub .., unary_bufs_sub ..,
    nullary_bufs_sub .., nullary_bufs_sub .., unary_bufs_sub .., binary_bufs_sub .., unary_bufs_sub ..,
    unary_bufs_sub .., binary_bufs_sub .., binary_bufs_sub .., nullary_bufs_sub .., binary_bufs_sub ..,
    binary_bufs_sub .., unary_bufs_sub .., nullary_bufs_sub .., unary_bufs_sub .., ternary_bufs_sub ..⟩

/-- On every device, for any float values, from any memory with zero counters: every weakly fair execution of
    @main terminates, and every buffer ends at the fold of the operations' results over its launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefTerm.lean ====
/-
  The reference's result as one term of the argument.

  The intermediate values that do not depend on the argument are named: the constant table, the table with negative
  entries wrapped (entry + 64 where the entry is negative), the same as a column of start indices, and the bounds
  mask (start index between 0 and 63, reduced by "and" over the unit axis).  The result is the gather of the reshaped
  argument at the start indices where the mask is set, and the quiet-NaN constant elsewhere.
-/
import proofs.«150786_g481036337610_cont_8to1c4_34_17_alg».proof.Proof.Gen.ReferenceIdeal

noncomputable section

namespace Cert.ReferenceIdeal.RefValue

open Cert.ReferenceIdeal Idealize.ShloMosaic
open Cert.ReferenceIdeal.Facts₀

variable {F : FTy → Type} [FloatOps F]

/-- The constant table: entry `i` is the literal at `i`'s row-major position. -/
def table : IVec S64 32 := fun i => lit0 (S64.rowMajor i)

/-- The table with Python's negative-index wrap applied: an entry below zero has 64 added. -/
def wrapped : IVec S64 32 :=
  select (cmpi .slt table (broadcastInDim S64 ![] bcast_S_S64 (constantI S_ 32 0#32)))
    (addi table (broadcastInDim S64 ![] bcast_S_S64 (constantI S_ 32 64#32))) table

/-- The wrapped table as a column: one start index per result position. -/
def starts : IVec S64x1 32 := broadcastInDim S64x1 ![0] bcast_S64_S64x1_0 wrapped

/-- The bounds mask: per result position, whether its start index lies in `0 … 63` (the "and" of the two
    comparisons, reduced over the unit axis from the constant one). -/
def inBounds : IVec S64 1 :=
  Host.reduce IntOp.andi
    (andi (cmpi .sge starts (broadcastInDim S64x1 ![] bcast_S_S64x1 (constantI S_ 32 0#32)))
      (cmpi .sle starts (broadcastInDim S64x1 ![0, 1] bcast_S1x1_S64x1_0_1
        (broadcastInDim S1x1 ![1] bcast_S1_S1x1_1 (constantI S1 32 63#32)))))
    (constantI S_ 1 1#1) reducesTo_S64x1_S64_d1 h_S_

/-- The result as a function of the argument: the argument with each 8 × 8 tile flattened, gathered along the last
    axis at the start indices, kept where the bounds mask is set and the NaN constant elsewhere. -/
def taken (x : FVec F S128x4096x8x8 .f32) : FVec F S128x4096x64 .f32 :=
  select (broadcastInDim S128x4096x64 ![2] bcast_S64_S128x4096x64_2 inBounds)
    (Host.gather gather_S128x4096x64_S64x1_S128x4096x64_01_2_n_n_2_1_12840961
      (shapeCast S128x4096x64 x shapeCasts_S128x4096x8x8_S128x4096x64) starts)
    (broadcastInDim S128x4096x64 ![] bcast_S_S128x4096x64 (constant S_ .f32 0x7FC00000#32))

end Cert.ReferenceIdeal.RefValue

end
-- ==== Proof.RefRun.lean ====
/-
  What the reference's line of operations leaves in its buffers.

  Folding the twenty-five operations over the launch contents, the result buffer ends at `taken` of the argument
  buffer's contents (the term of RefTerm.lean), and the argument buffer is written by no operation.  With the run of
  the straight line this gives the reference's run: every weakly fair execution terminates in such a state.
-/
import proofs.«150786_g481036337610_cont_8to1c4_34_17_alg».proof.Proof.RefOps
import proofs.«150786_g481036337610_cont_8to1c4_34_17_alg».proof.Proof.RefTerm

noncomputable section

namespace Cert.ReferenceIdeal.RefValue

open Cert.ReferenceIdeal Idealize.ShloMosaic Idealize.ShloMosaic.TcCoe Idealize.SL.Sem
  Idealize.ShloMosaic.StableHlo
open Cert.ReferenceIdeal.Facts₀

variable {F : FTy → Type} [FloatOps F]

-- the pure operations are kept folded while the two sides are compared: the equation is between the same operations
-- applied to the same operands, and never looks inside one
attribute [local irreducible] Host.reduce Host.gather select cmpi addi andi broadcastInDim shapeCast constantI constant in
/-- After the line, the result buffer holds `taken` of the argument buffer's contents: each operation's result at its
    own buffer is its function of its operands' contents, and the typed references' transports are the identity at
    these literal references. -/
theorem result_eq (V : Valuation τ sig (Elt F)) :
    after ops V (main_v1 : DevRef τ sig) = taken (F := F) (V (main_arg0 : DevRef τ sig)) := by
  after_results_simp
  rfl

/-- After the line, the argument buffer holds what it held: no operation writes it. -/
theorem arg0_eq (V : Valuation τ sig (Elt F)) :
    after ops V (main_arg0 : DevRef τ sig) = V (main_arg0 : DevRef τ sig) := by
  after_results_simp

/-- On every device, for any float values, from any memory with zero counters: every weakly fair execution of @main
    terminates with the result buffer at `taken` of the argument's launch contents and the argument unchanged. -/
theorem run_taken (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1) = taken (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v1).trans (result_eq _), (h c main_arg0).trans (arg0_eq _)⟩)
    (run_main m ρ)

end Cert.ReferenceIdeal.RefValue

end
-- ==== Proof.LibGatherLast.lean ====
/-
  `stablehlo.gather` that takes along the LAST axis of a rank-3 operand, read at an index.

  What `jnp.take(x, idx, axis=2)` of an array `x : [A, B, N]` at an integer vector `idx : [K]` lowers to: a gather with
  offset_dims `[0, 1]`, collapsed_slice_dims `[2]`, start_index_map `[2]`, index_vector_dim 1 and slice_sizes
  `[A, B, 1]` over the indices as a column `[K, 1]`.  Result element `(a, b, k)` is `x` at `(a, b, idx[k, 0])`, the
  start index read as a signed integer and clamped into `[0, N − 1]`, as StableHLO's gather clamps every start index.
  The companion of Lib/ValueIdx.lean's `gather_take_apply` (a rank-1 operand) for an operand with two leading axes
  that are copied whole.
-/
import Idealize.ShloMosaic.Lib.ValueIdx

noncomputable section

namespace Idealize.ShloMosaic.ValueIdx

open Idealize.ShloMosaic

section TakeLast
variable {α : Type}

/-- Those dimension numbers for an operand `[A, B, N]`, start indices `[K, 1]` and result `[A, B, K]`; their conditions
    `wf` are decided on a program's literal shapes. -/
abbrev takeLastDims (A B N K : Nat)
    (wf : GatherDims.WF ⟨3, ![A, B, N]⟩ ⟨2, ![K, 1]⟩ ⟨3, ![A, B, K]⟩ [0, 1] [2] [] [2] [] 1 ![A, B, 1]) :
    GatherDims ⟨3, ![A, B, N]⟩ ⟨2, ![K, 1]⟩ ⟨3, ![A, B, K]⟩ where
  offsetDims := [0, 1]
  collapsedSliceDims := [2]
  operandBatchingDims := []
  startIndicesBatchingDims := []
  startIndexMap := [2]
  indexVectorDim := 1
  sliceSizes := ![A, B, 1]
  wf := wf

/-- THE GATHER READ AT `(a, b, k)`: the operand at `(a, b, ·)` with the last coordinate the start index `idx[k, 0]`, read
    signed and clamped into `[0, N − 1]`.  On the two leading axes the start is zero and the offset coordinate is the
    result's; on the last axis the slice has size one, so the offset is zero and the coordinate is the clamped start. -/
theorem gather_takeLast_apply {A B N K w : Nat} (hN : 0 < N)
    (wf : GatherDims.WF ⟨3, ![A, B, N]⟩ ⟨2, ![K, 1]⟩ ⟨3, ![A, B, K]⟩ [0, 1] [2] [] [2] [] 1 ![A, B, 1])
    (x : (⟨3, ![A, B, N]⟩ : Shape).Idx → α) (idx : IVec ⟨2, ![K, 1]⟩ w) (a : Fin A) (b : Fin B) (k : Fin K) :
    Host.gather (takeLastDims A B N K wf) x idx (ix3 a b k)
      = x (ix3 a b ⟨min (idx (ix2 k (0 : Fin 1))).toInt.toNat (N - 1), by omega⟩) := by
  unfold Host.gather
  congr 1
  funext c
  refine Fin.ext ?_
  show (takeLastDims A B N K wf).start (ix3 a b k) idx c + (takeLastDims A B N K wf).batchCoord (ix3 a b k) c
      + (takeLastDims A B N K wf).offCoord (ix3 a b k) c = _
  rw [GatherDims.batchCoord_eq_zero _ _ _ List.not_mem_nil, Nat.add_zero]
  match c with
  | ⟨0, _⟩ =>
    show (takeLastDims A B N K wf).start (ix3 a b k) idx (0 : Fin 3)
      + (takeLastDims A B N K wf).offCoord (ix3 a b k) (0 : Fin 3) = a.val
    have hs : (takeLastDims A B N K wf).start (ix3 a b k) idx (0 : Fin 3) = 0 := by
      unfold GatherDims.start; rw [dif_neg (show (0 : Fin 3) ∉ ([2] : List (Fin 3)) by decide)]
    have ho : (takeLastDims A B N K wf).offCoord (ix3 a b k) (0 : Fin 3) = a.val := by
      unfold GatherDims.offCoord
      rw [dif_pos ((GatherDims.mem_sKept _ _).mpr ⟨show (0 : Fin 3) ∉ ([2] : List (Fin 3)) by decide, List.not_mem_nil⟩)]
      rfl
    rw [hs, ho, Nat.zero_add]
  | ⟨1, _⟩ =>
    show (takeLastDims A B N K wf).start (ix3 a b k) idx (1 : Fin 3)
      + (takeLastDims A B N K wf).offCoord (ix3 a b k) (1 : Fin 3) = b.val
    have hs : (takeLastDims A B N K wf).start (ix3 a b k) idx (1 : Fin 3) = 0 := by
      unfold GatherDims.start; rw [dif_neg (show (1 : Fin 3) ∉ ([2] : List (Fin 3)) by decide)]
    have ho : (takeLastDims A B N K wf).offCoord (ix3 a b k) (1 : Fin 3) = b.val := by
      unfold GatherDims.offCoord
      rw [dif_pos ((GatherDims.mem_sKept _ _).mpr ⟨show (1 : Fin 3) ∉ ([2] : List (Fin 3)) by decide, List.not_mem_nil⟩)]
      rfl
    rw [hs, ho, Nat.zero_add]
  | ⟨2, _⟩ =>
    show (takeLastDims A B N K wf).start (ix3 a b k) idx (2 : Fin 3)
      + (takeLastDims A B N K wf).offCoord (ix3 a b k) (2 : Fin 3) = min (idx (ix2 k (0 : Fin 1))).toInt.toNat (N - 1)
    rw [GatherDims.offCoord_eq_zero _ _ _ (fun h => ((GatherDims.mem_sKept _ _).mp h).1 (List.mem_singleton.mpr rfl)),
      Nat.add_zero]
    unfold GatherDims.start
    rw [dif_pos (show (2 : Fin 3) ∈ (takeLastDims A B N K wf).startIndexMap from List.mem_singleton.mpr rfl)]
    have hsi : (takeLastDims A B N K wf).siIdx (ix3 a b k) ⟨List.idxOf (2 : Fin 3) (takeLastDims A B N K wf).startIndexMap,
        List.idxOf_lt_length_iff.2 (List.mem_singleton.mpr rfl)⟩ = ix2 k (0 : Fin 1) := by
      funext d; refine Fin.ext ?_
      match d with
      | ⟨0, _⟩ => rfl
      | ⟨1, _⟩ => rfl
    rw [hsi]
    rfl

end TakeLast

end Idealize.ShloMosaic.ValueIdx

end
-- ==== Proof.LibReduceAnd.lean ====
/-
  A `stablehlo.reduce` by "and" over one-bit words whose operand is one everywhere, from the initial value one, is one
  at every result index: the converse direction of Lib/ReduceAll.lean's `Host.reduce_andi_eq_one`.  It is what a
  bounds mask reduces to once every start index is known to be in range.
-/
import Idealize.ShloMosaic.PureOps.Reduce

namespace Idealize.ShloMosaic

/-- A left fold by "and" over one-bit words, started at one and meeting only ones, ends at one. -/
theorem IntOp.foldl_andi_of_forall_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    rw [List.foldl_cons]
    exact IntOp.foldl_andi_of_forall_one f l _ (by rw [h, hl a List.mem_cons_self]; rfl)
      (fun n hn => hl n (List.mem_cons_of_mem _ hn))

/-- A one-operand `stablehlo.reduce` by "and" of an operand that is one at every index, from an initial value that is
    one, is one at every result index — whatever the reduced axes are. -/
theorem Host.reduce_andi_of_forall_one {s t u : Shape} {axes : List (Fin s.rank)} (x : s.Idx → BitVec 1)
    (init : u.Idx → BitVec 1) (h : s.ReducesTo axes t) (hu : 0 < u.numel) (hinit : init (Shape.Idx.first hu) = 1#1)
    (hx : ∀ i, x i = 1#1) (j : t.Idx) : Host.reduce IntOp.andi x init h hu j = 1#1 := by
  rw [Host.reduce_eq_foldl]
  exact IntOp.foldl_andi_of_forall_one x _ _ hinit (fun i _ => hx i)

end Idealize.ShloMosaic
-- ==== Proof.RefRead.lean ====
/-
  The reference's result read at an index: the zig-zag reordering of the argument.

  Three facts about the 64 literal entries of the table are decided entry by entry: no entry is negative (so the wrap
  leaves it), every entry lies in 0 … 63 (so the bounds mask is set), and entry `j`, read as a signed integer and
  clamped to 0 … 63, is `order j`.  With them the wrapped table is the table, the bounds mask is one at every
  position, the gather reads the flattened tile at `order j`, and the flattened tile at `n` is the tile at row
  `n / 8`, column `n % 8`.
-/
import proofs.«150786_g481036337610_cont_8to1c4_34_17_alg».proof.Proof.RefTerm
import proofs.«150786_g481036337610_cont_8to1c4_34_17_alg».proof.Proof.Spec
import proofs.«150786_g481036337610_cont_8to1c4_34_17_alg».proof.Proof.LibGatherLast
import proofs.«150786_g481036337610_cont_8to1c4_34_17_alg».proof.Proof.LibReduceAnd
import Idealize.ShloMosaic.Lib.Pipeline.Value

noncomputable section

namespace Cert.ReferenceIdeal.RefValue

open Cert.ReferenceIdeal Idealize.ShloMosaic Idealize.ShloMosaic.ValueIdx
open Cert.ReferenceIdeal.Facts₀

/-! ## The table's entries, decided one by one -/

/-- No entry is negative: the wrap (add 64 where the entry is below zero) leaves every entry as it is. -/
theorem wrap_lit0 : ∀ j : Fin 64,
    Scalar.select (IntOp.cmpi .slt (lit0 j) 0#32) (IntOp.addi (lit0 j) 64#32) (lit0 j) = lit0 j := by decide

/-- Every entry lies between 0 and 63, as signed integers. -/
theorem bounds_lit0 : ∀ j : Fin 64,
    IntOp.andi (IntOp.cmpi .sge (lit0 j) 0#32) (IntOp.cmpi .sle (lit0 j) 63#32) = 1#1 := by decide

/-- Entry `j`, read as a signed integer and clamped into 0 … 63, is `order j`. -/
theorem clamp_lit0 : ∀ j : Fin 64, min (lit0 j).toInt.toNat 63 = (Cert.ZigZag.order j).val := by decide

/-! ## The index-free values at an index -/

/-- The table at position `j` is the literal's entry `j`. -/
theorem table_apply (j : Fin 64) : table (ix1 j) = lit0 j := by
  unfold table
  congr 1
  exact Fin.ext (Shape.rowMajor_val_one _)

/-- The wrapped table is the table. -/
theorem wrapped_apply (j : Fin 64) : wrapped (ix1 j) = lit0 j := by
  show Scalar.select (IntOp.cmpi .slt (table (ix1 j)) 0#32) (IntOp.addi (table (ix1 j)) 64#32) (table (ix1 j)) = lit0 j
  rw [table_apply, wrap_lit0]

/-- The column of start indices at `(j, 0)` is entry `j`. -/
theorem starts_apply (j : Fin 64) (z : Fin 1) : starts (ix2 j z) = lit0 j := by
  unfold starts
  rw [broadcastInDim_apply _ _ _ _ (ix1 j) (by intro a; obtain rfl : a = 0 := Subsingleton.elim _ _; rfl), wrapped_apply]

/-- The bounds mask is set at every position. -/
theorem inBounds_apply (i : S64.Idx) : inBounds i = 1#1 := by
  unfold inBounds
  refine Host.reduce_andi_of_forall_one _ _ _ _ rfl (fun i => ?_) _
  obtain ⟨j, z, rfl⟩ : ∃ (j : Fin 64) (z : Fin 1), i = ix2 j z := ⟨i 0, i 1, eq_ix2 i⟩
  show IntOp.andi (IntOp.cmpi .sge (starts (ix2 j z)) 0#32) (IntOp.cmpi .sle (starts (ix2 j z)) 63#32) = 1#1
  rw [starts_apply, bounds_lit0]

/-! ## The result at an index -/

section Read
variable {F : FTy → Type} [FloatOps F]

/-- The flattened tile at position `n` is the tile's entry in row `n / 8`, column `n % 8`: the same row-major
    position under the two shapes. -/
theorem flat_apply (x : FVec F S128x4096x8x8 .f32) (b : Fin 128) (c : Fin 4096) (n : Fin 64) :
    shapeCast S128x4096x64 x shapeCasts_S128x4096x8x8_S128x4096x64 (ix3 b c n)
      = x (ix4 b c ⟨n.val / 8, by omega⟩ ⟨n.val % 8, by omega⟩) := by
  refine shapeCast_apply _ _ _ _ ?_
  rw [Shape.rowMajor_val_four, Shape.rowMajor_val_three]
  show ((b.val * 4096 + c.val) * 8 + n.val / 8) * 8 + n.val % 8 = (b.val * 4096 + c.val) * 64 + n.val
  omega

/-- THE RESULT AT `(b, c, j)`: the mask is set, so the select keeps the gathered value; the gather reads the flattened
    tile `(b, c)` at the clamped start index, which is `order j`; and that is the tile's entry at row `orow j`, column
    `ocol j`. -/
theorem taken_apply (x : FVec F S128x4096x8x8 .f32) (b : Fin 128) (c : Fin 4096) (j : Fin 64) :
    taken x (ix3 b c j) = x (ix4 b c (Cert.ZigZag.orow j) (Cert.ZigZag.ocol j)) := by
  unfold taken
  rw [select_apply,
    broadcastInDim_apply _ _ _ _ (ix1 j) (by intro a; obtain rfl : a = 0 := Subsingleton.elim _ _; rfl),
    inBounds_apply, select_one]
  show Host.gather (takeLastDims 128 4096 64 64 gather_S128x4096x64_S64x1_S128x4096x64_01_2_n_n_2_1_12840961_wf) _ starts
    (ix3 b c j) = _
  rw [gather_takeLast_apply (by decide)]
  have hs : min (starts (ix2 j (0 : Fin 1))).toInt.toNat (64 - 1) = (Cert.ZigZag.order j).val := by
    rw [starts_apply]; exact clamp_lit0 j
  have hn : (⟨min (starts (ix2 j (0 : Fin 1))).toInt.toNat (64 - 1), by omega⟩ : Fin 64) = Cert.ZigZag.order j :=
    Fin.ext hs
  rw [hn, flat_apply]
  rfl

end Read

/-- At the ideal instance the reference's result is the zig-zag reordering of its argument. -/
theorem taken_eq_reordered (x : FVec Ideal S128x4096x8x8 .f32) : taken x = Cert.ZigZag.reordered x := by
  funext i
  obtain ⟨b, c, j, rfl⟩ : ∃ (b : Fin 128) (c : Fin 4096) (j : Fin 64), i = ix3 b c j := ⟨i 0, i 1, i 2, eq_ix3 i⟩
  rw [taken_apply, Cert.ZigZag.reordered_apply]

end Cert.ReferenceIdeal.RefValue

end
-- ==== Proof.RefValue.lean ====
/-
  The reference's run, stated against the zig-zag reordering.

  The run of the reference's straight line ends with the result buffer at the composed term of the argument
  (RefRun.lean); read at the ideal instance, that term is the zig-zag reordering of the argument index by index
  (RefRead.lean).  Together: every weakly fair execution of the reference terminates with its result buffer holding the
  reordered argument and its argument buffer unchanged.
-/
import proofs.«150786_g481036337610_cont_8to1c4_34_17_alg».proof.Proof.RefRun
import proofs.«150786_g481036337610_cont_8to1c4_34_17_alg».proof.Proof.RefRead

noncomputable section

namespace Cert.ReferenceIdeal.RefValue

open Cert.ReferenceIdeal Idealize.ShloMosaic Idealize.ShloMosaic.TcCoe Idealize.SL.Sem

/-- At the ideal instance, from any memory with zero counters: every weakly fair execution of the reference's @main
    terminates, its result buffer holding the zig-zag reordering of the argument's launch contents and its argument
    buffer what it held. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩
      (fun r => ∀ c : Dev Cert.ReferenceIdeal.nD,
        r.2.mem ((c.tc : Thread Cert.ReferenceIdeal.nD Cert.ReferenceIdeal.τ).loc Cert.ReferenceIdeal.main_v1)
            = Cert.ZigZag.reordered (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)) :=
  (θ_run defs _ _).mono (fun _ h c => ⟨((h c).1).trans (taken_eq_reordered _), (h c).2⟩) (run_taken (F := Ideal) m ρ)

end Cert.ReferenceIdeal.RefValue

end
-- ==== Proof.lean ====
/-
  A fixed reordering of 8 × 8 tiles: the kernel against its reference.

  The argument `x : [128, 4096, 8, 8]` holds an 8 × 8 tile for each (batch, block).  The reference flattens every tile
  row by row and takes its 64 entries in the zig-zag order.  The kernel re-lays the argument so that the 64 tile
  entries become planes, multiplies, at each of 32 grid points, four batches of planes by the 64 × 64 matrix of the
  order (row `j` is one in column `order j`, zero elsewhere), and re-lays the result.  On the extended reals a product
  with that matrix selects — every other term is a zero times an extended real, which is zero —, so both programs
  return the one array `Cert.ZigZag.reordered x`: entry (b, c, j) is the tile (b, c)'s entry at row `order j / 8`,
  column `order j % 8`.  No finiteness of the input is used.

  The kernel's frames are the generated ones; its value is read off the generated frame run (the blocks the points
  write back cover the region's array) and the two re-layings around the region; the reference's run and its reading
  at an index are written out by hand; the idealization rewrote nothing, so `preserves` is trivial.
-/
import proofs.«150786_g481036337610_cont_8to1c4_34_17_alg».proof.Defs
import proofs.«150786_g481036337610_cont_8to1c4_34_17_alg».proof.Proof.Gen.Kernel
import proofs.«150786_g481036337610_cont_8to1c4_34_17_alg».proof.Proof.Gen.Kernel.Skeleton
import proofs.«150786_g481036337610_cont_8to1c4_34_17_alg».proof.Proof.Gen.Kernel.Launch
import proofs.«150786_g481036337610_cont_8to1c4_34_17_alg».proof.Proof.Gen.Kernel.Points
import proofs.«150786_g481036337610_cont_8to1c4_34_17_alg».proof.Proof.Gen.Kernel.Frame
import proofs.«150786_g481036337610_cont_8to1c4_34_17_alg».proof.Proof.Gen.KernelIdeal
import proofs.«150786_g481036337610_cont_8to1c4_34_17_alg».proof.Proof.Gen.KernelIdeal.Skeleton
import proofs.«150786_g481036337610_cont_8to1c4_34_17_alg».proof.Proof.Gen.KernelIdeal.Launch
import proofs.«150786_g481036337610_cont_8to1c4_34_17_alg».proof.Proof.Gen.KernelIdeal.Points
import proofs.«150786_g481036337610_cont_8to1c4_34_17_alg».proof.Proof.Gen.KernelIdeal.Frame
import proofs.«150786_g481036337610_cont_8to1c4_34_17_alg».proof.Proof.Gen.ReferenceIdeal
import proofs.«150786_g481036337610_cont_8to1c4_34_17_alg».proof.Proof.Gen.Pre_finite_inputs
import proofs.«150786_g481036337610_cont_8to1c4_34_17_alg».proof.Proof.KernelRun
import proofs.«150786_g481036337610_cont_8to1c4_34_17_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.RefValue.run m ρ)

/-- Both programs end with the returned array at `reordered` of their argument arrays, and the argument arrays agree. -/
theorem algebraic : Cert.algebraic_KernelIdeal_ReferenceIdeal := by
  intro m ρ m' ρ' _ hagree
  refine ⟨fun c => Cert.ZigZag.reordered (m ((c.tc : Thread Cert.KernelIdeal.nD Cert.KernelIdeal.τ).loc Cert.KernelIdeal.main_arg0)),
    Cert.KernelIdeal.Bridge.run m ρ, ?_⟩
  refine (θ_run Cert.ReferenceIdeal.defs _ _).mono (fun _ h c => ⟨(h c).1.trans ?_, (h c).2⟩)
    (Cert.ReferenceIdeal.RefValue.run m' ρ')
  rw [hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
